-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg11
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S64x128 .f32) (main_arg10 : FVec F S64 .f32) (main_arg11 : FVec F S64x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S64x128 .f32) (main_arg10 : FVec F S64 .f32) (main_arg11 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S50000x128 .f32) (main_arg2 : FVec F S50000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S64x128 .f32) (main_arg10 : FVec F S64 .f32) (main_arg11 : FVec F S64x128 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S128x64 : Shape := ⟨2, ![128, 64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 118
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x64, .f32⟩
  | .hbm, ⟨22, _⟩ => ⟨S128x64, .f32⟩
  | .hbm, ⟨23, _⟩ => ⟨S_, .f32⟩
  | .hbm, ⟨24, _⟩ => ⟨S50000x128, .f32⟩
  | .hbm, ⟨25, _⟩ => ⟨S50000x128, .i1⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .i1⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S50000, .f32⟩
  | .hbm, ⟨54, _⟩ => ⟨S800000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S_, .f32⟩
  | .hbm, ⟨78, _⟩ => ⟨S800000, .f32⟩
  | .hbm, ⟨79, _⟩ => ⟨S_, .f32⟩
  | .hbm, ⟨80, _⟩ => ⟨S50000, .f32⟩
  | .hbm, ⟨81, _⟩ => ⟨S800000x1, .i32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S_, .f32⟩
  | .hbm, ⟨105, _⟩ => ⟨S800000, .f32⟩
  | .hbm, ⟨106, _⟩ => ⟨S_, .f32⟩
  | .hbm, ⟨107, _⟩ => ⟨S50000, .f32⟩
  | .hbm, ⟨108, _⟩ => ⟨S800000x1, .i32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S1x64, .f32⟩
  | .hbm, ⟨117, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S1x64, .f32⟩
  | .local _ .vmem, ⟨28, _⟩ => ⟨S128x64, .f32⟩
  | .local _ .vmem, ⟨29, _⟩ => ⟨S5000x64, .f32⟩
  | .local _ .vmem, ⟨30, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S64x128_S128x64_1_0 : S64x128.Transposes [1, 0] S128x64
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v61) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v80) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S64x128, .f32⟩
  | 10 => ⟨S64, .f32⟩
  | 11 => ⟨S64x128, .f32⟩
  | 12 => ⟨S2x800000, .i32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S128x128, .f32⟩
  | 43 => ⟨S50000x128, .f32⟩
  | 44 => ⟨S1x128, .f32⟩
  | 45 => ⟨S50000x128, .f32⟩
  | 46 => ⟨S50000x128, .f32⟩
  | 47 => ⟨S128x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S50000x128, .f32⟩
  | 55 => ⟨S50000x128, .i1⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S128x128, .f32⟩
  | 87 => ⟨S50000x128, .f32⟩
  | 88 => ⟨S1x128, .f32⟩
  | 89 => ⟨S50000x128, .f32⟩
  | 90 => ⟨S50000x128, .f32⟩
  | 91 => ⟨S128x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .i1⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S128x64, .f32⟩
  | 3 => ⟨S50000x64, .f32⟩
  | 4 => ⟨S1x64, .f32⟩
  | 5 => ⟨S50000x64, .f32⟩
  | 6 => ⟨S50000x64, .f32⟩
  | 7 => ⟨S128x64, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_cst : Ref sig .tc := ⟨.hbm, 94, rfl⟩
abbrev main_call1_v0 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_17 : Ref sig .tc := ⟨.hbm, 118, rfl⟩
abbrev main_v82 : Ref sig .tc := ⟨.hbm, 119, rfl⟩
abbrev main_cst_18 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_19 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelNamed.lean ====
/-
  The kernel program's run with its RESULT named.

  The program is three pallas_calls among stretches of host operations.  Its frame — every weakly fair execution
  terminates, nothing faults, the argument arrays end as launched — is proved from the chain of buffer contents at the
  segment boundaries: the launch memory, then a host stretch's fold, then a pallas_call's write-backs folded into its
  arrays, and so on to the last boundary.  The same chain, read at the result buffer instead of an argument, says what
  the result array holds at the end: the last boundary's contents there.  This module states the run with that one
  more conjunct; the sibling modules then read the last boundary's contents back, layer by layer, to the arguments.
-/
import proofs.«157667_j33320356282736_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents (`W6`: the third pallas_call's write-backs folded) and every argument array as launched. -/
theorem run_named : θ_run defs (onTc (τ := τ) (main (F := F))) ⟨m, fun _ => 0, ρ⟩ (fun r => ∀ c : Dev nD,
      r.2.mem ((c.tc : Thread nD τ).loc main_v82) = W6 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v82 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Hand

end
-- ==== Proof.Terms.lean ====
/-
  The building blocks both programs share, named once.

  A GraphSAGE layer is a neighbour mean followed by a dense map.  The neighbour mean of a feature array `h` over the edge
  list (`src`, `dst`) — gather the rows `h[src]`, add them into the rows `dst`, divide by the number of incoming edges
  (at least one) — is computed on the host by the same chain of operations in the kernel's program and in the reference;
  it is carried as ONE function `agg`, never opened.  So are the dropout mask `maskOf u = (u ≥ 0.3) / 0.7`, the weight
  transposes and the bias row.

  The dense map is stated index by index over the extended reals:
  `layerA` is `max (Σₖ mean[i,k]·wl[k,j] + Σₖ x[i,k]·wr[k,j] + b[0,j]) 0 · mask[i,j]` and `layerB` the same sum with
  neither the maximum nor the mask (the last layer).  `outK` composes the three layers.
-/
import proofs.«157667_j33320356282736_1_alg».proof.Proof.Gen.KernelIdeal
import Idealize.ShloMosaic.PureOps.Ideal
import Idealize.ShloMosaic.Lib.ValueIdx

noncomputable section

namespace Cert.KernelIdeal.Hand

open Cert.KernelIdeal Cert.KernelIdeal.Gen Idealize.ShloMosaic Idealize.ShloMosaic.ValueIdx

section Host
variable {F : FTy → Type} [FloatOps F]

/-- Row 0 of the edge list: the source node of every edge. -/
def srcOf (e : IVec S2x800000 32) : IVec S800000 32 :=
  shapeCast S800000 (extractStridedSlice S1x800000 ![0, 0] e slices_S2x800000_S1x800000_0_0) shapeCasts_S1x800000_S800000

/-- Row 1 of the edge list: the destination node of every edge. -/
def dstOf (e : IVec S2x800000 32) : IVec S800000 32 :=
  shapeCast S800000 (extractStridedSlice S1x800000 ![1, 0] e slices_S2x800000_S1x800000_1_0) shapeCasts_S1x800000_S800000

/-- The neighbour mean: rows `h[src]` (a negative index wrapped once) added into rows `dst`, divided by the number of
    edges into each row, at least one. -/
def agg (h : FVec F S50000x128 .f32) (src dst : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The dropout mask: `(u ≥ 0.3)` as 0 or 1, divided by `0.7` (both as their f32 values). -/
def maskOf (u : FVec F S50000x128 .f32) : FVec F S50000x128 .f32 :=
  Host.divf (uitofp .f32 (cmpf .oge u (broadcastInDim S50000x128 ![] bcast_S_S50000x128 (constant S_ .f32 0x3E99999A#32))))
    (broadcastInDim S50000x128 ![] bcast_S_S50000x128 (constant S_ .f32 0x3F333333#32))

/-- A square weight matrix transposed. -/
def tr128 (w : FVec F S128x128 .f32) : FVec F S128x128 .f32 := transpose S128x128 [1, 0] w transposes_S128x128_S128x128_1_0
/-- The last layer's weight matrix transposed. -/
def tr64 (w : FVec F S64x128 .f32) : FVec F S128x64 .f32 := transpose S128x64 [1, 0] w transposes_S64x128_S128x64_1_0
/-- A bias vector as a one-row matrix. -/
def row128 (b : FVec F S128 .f32) : FVec F S1x128 .f32 := shapeCast S1x128 b shapeCasts_S128_S1x128
/-- The last layer's bias vector as a one-row matrix. -/
def row64 (b : FVec F S64 .f32) : FVec F S1x64 .f32 := shapeCast S1x64 b shapeCasts_S64_S1x64

end Host

/-- The two matrix products and the bias of a dense layer at row `i`, column `j`, as an extended real. -/
def denseAt {O : Nat} (mean x : FVec Ideal S50000x128 .f32) (wlT : FVec Ideal ⟨2, ![128, O]⟩ .f32) (blr : FVec Ideal ⟨2, ![1, O]⟩ .f32)
    (wrT : FVec Ideal ⟨2, ![128, O]⟩ .f32) (i : Fin 50000) (j : Fin O) : EReal :=
  (∑ k : Fin 128, mean (ix2 i k) * wlT (ix2 k j)) + (∑ k : Fin 128, x (ix2 i k) * wrT (ix2 k j)) + blr (ix2 (0 : Fin 1) j)

/-- A hidden layer: the dense map, the maximum with zero, the dropout mask. -/
def layerA (mean x : FVec Ideal S50000x128 .f32) (wlT : FVec Ideal S128x128 .f32) (blr : FVec Ideal S1x128 .f32)
    (wrT : FVec Ideal S128x128 .f32) (mask : FVec Ideal S50000x128 .f32) : FVec Ideal S50000x128 .f32 :=
  fun i => max (denseAt mean x wlT blr wrT ⟨(i 0).val, (i 0).isLt⟩ ⟨(i 1).val, (i 1).isLt⟩) (Ideal.ofBits .f32 0x00000000#32) * mask i

/-- The last layer: the dense map alone. -/
def layerB (mean x : FVec Ideal S50000x128 .f32) (wlT : FVec Ideal S128x64 .f32) (blr : FVec Ideal S1x64 .f32)
    (wrT : FVec Ideal S128x64 .f32) : FVec Ideal S50000x64 .f32 :=
  fun i => denseAt mean x wlT blr wrT ⟨(i 0).val, (i 0).isLt⟩ ⟨(i 1).val, (i 1).isLt⟩

/-- The first hidden layer of the argument arrays. -/
def h1K (x u1 : FVec Ideal S50000x128 .f32) (wl0 : FVec Ideal S128x128 .f32) (bl0 : FVec Ideal S128 .f32) (wr0 : FVec Ideal S128x128 .f32)
    (e : IVec S2x800000 32) : FVec Ideal S50000x128 .f32 :=
  layerA (agg x (srcOf e) (dstOf e)) x (tr128 wl0) (row128 bl0) (tr128 wr0) (maskOf u1)

/-- The second hidden layer, of the first. -/
def h2K (h1 u2 : FVec Ideal S50000x128 .f32) (wl1 : FVec Ideal S128x128 .f32) (bl1 : FVec Ideal S128 .f32) (wr1 : FVec Ideal S128x128 .f32)
    (e : IVec S2x800000 32) : FVec Ideal S50000x128 .f32 :=
  layerA (agg h1 (srcOf e) (dstOf e)) h1 (tr128 wl1) (row128 bl1) (tr128 wr1) (maskOf u2)

/-- The output layer, of the second hidden layer. -/
def h3K (h2 : FVec Ideal S50000x128 .f32) (wl2 : FVec Ideal S64x128 .f32) (bl2 : FVec Ideal S64 .f32) (wr2 : FVec Ideal S64x128 .f32)
    (e : IVec S2x800000 32) : FVec Ideal S50000x64 .f32 :=
  layerB (agg h2 (srcOf e) (dstOf e)) h2 (tr64 wl2) (row64 bl2) (tr64 wr2)

/-- The whole network of the thirteen argument arrays. -/
def outK (x u1 u2 : FVec Ideal S50000x128 .f32) (wl0 : FVec Ideal S128x128 .f32) (bl0 : FVec Ideal S128 .f32) (wr0 : FVec Ideal S128x128 .f32)
    (wl1 : FVec Ideal S128x128 .f32) (bl1 : FVec Ideal S128 .f32) (wr1 : FVec Ideal S128x128 .f32)
    (wl2 : FVec Ideal S64x128 .f32) (bl2 : FVec Ideal S64 .f32) (wr2 : FVec Ideal S64x128 .f32) (e : IVec S2x800000 32) : FVec Ideal S50000x64 .f32 :=
  h3K (h2K (h1K x u1 wl0 bl0 wr0 e) u2 wl1 bl1 wr1 e) wl2 bl2 wr2 e

end Cert.KernelIdeal.Hand

end
-- ==== Proof.RegionA.lean ====
/-
  What the first two dense layers leave in their result arrays.

  Each of the two hidden layers runs over ten tiles of 5000 rows.  At a tile the body reads the tile's rows of the
  neighbour mean, of the features and of the mask, the two whole weight matrices and the bias row, and writes
  `max (mean·wl + x·wr + b) 0 · mask` to the tile's rows of the result.  Read index by index over the extended reals a
  row of the result depends only on the same row of the row-blocked operands, so the ten tiles are the restrictions of
  ONE whole-array function — `layerA` of the arrays the region finds — and, the tiles covering all 50000 rows, the result
  array ends holding that function.
-/
import proofs.«157667_j33320356282736_1_alg».proof.Proof.Terms
import proofs.«157667_j33320356282736_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## One tile of a hidden layer, index by index -/

/-- In a tile's product with a weight matrix the left operand is read in the row of the result's index. -/
theorem dotL_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- In a tile's product with a weight matrix the left operand is read in the column the summation index names. -/
theorem dotL_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- In a tile's product with a weight matrix the right operand is read in the row the summation index names. -/
theorem dotR_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- In a tile's product with a weight matrix the right operand is read in the column of the result's index. -/
theorem dotR_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A matrix product of a 5000-row tile with a square weight matrix, accumulated from zero, at row `r`, column `j`:
    the sum over the 128 inner indices of the products. -/
theorem tileDot_apply (a : FVec Ideal S5000x128 .bf16) (w : FVec Ideal S128x128 .bf16) (r : Fin 5000) (j : Fin 128) :
    matmul dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun ax => Fin.ext (by
      match ax with
      | ⟨0, _⟩ => exact dotL_row _ _
      | ⟨1, _⟩ => exact (dotL_col _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun ax => Fin.ext (by
      match ax with
      | ⟨0, _⟩ => exact (dotR_row _ _).trans hk
      | ⟨1, _⟩ => exact dotR_col _ _)
  rw [el, er]

/-- The zero offsets of a whole-buffer load or store, however they are spelt. -/
theorem zeroOffsets : (![0, 0] : Fin 2 → Nat) = fun _ => 0 := funext fun a => by fin_cases a <;> rfl

/-! ## The first hidden layer -/

/-- The first layer's tile: the two products, the bias row, the maximum with zero and the mask, at row `r`, column `j`. -/
theorem tile0_apply (x0 x1 : Vec Ideal S5000x128 .f32) (x2 x4 : Vec Ideal S128x128 .f32) (x3 : Vec Ideal S1x128 .f32)
    (x5 : Vec Ideal S5000x128 .f32) (r : Fin 5000) (j : Fin 128) :
    k0_pay1 x0 x1 x2 x4 x3 x5 (ix2 r j)
      = max ((∑ k : Fin 128, x0 (ix2 r k) * x2 (ix2 k j)) + (∑ k : Fin 128, x1 (ix2 r k) * x4 (ix2 k j)) + x3 (ix2 (0 : Fin 1) j))
          (Ideal.ofBits .f32 0x00000000#32) * x5 (ix2 r j) := by
  unfold k0_pay1
  simp only [shapeCast_self]
  rw [mulf_apply, maximumf_apply, addf_apply, addf_apply, broadcast_apply, tileDot_apply, tileDot_apply, broadcastTo_1b_ab_apply]
  rfl

/-- A tile whose row-blocked operands are rows of whole arrays (row `r` of the tile is row `i` of the array) and whose
    weights and bias are whole arrays is, at row `r`, row `i` of the hidden layer of those arrays. -/
theorem tile0_of_layer (A0 A1 A5 : FVec Ideal S50000x128 .f32) (A2 A4 : FVec Ideal S128x128 .f32) (A3 : FVec Ideal S1x128 .f32)
    (x0 x1 x5 : Vec Ideal S5000x128 .f32) (x2 x4 : Vec Ideal S128x128 .f32) (x3 : Vec Ideal S1x128 .f32)
    (r : Fin 5000) (i : Fin 50000)
    (h0 : ∀ k : Fin 128, x0 (ix2 r k) = A0 (ix2 i k)) (h1 : ∀ k : Fin 128, x1 (ix2 r k) = A1 (ix2 i k))
    (h5 : ∀ k : Fin 128, x5 (ix2 r k) = A5 (ix2 i k)) (h2 : x2 = A2) (h3 : x3 = A3) (h4 : x4 = A4) (j : Fin 128) :
    k0_pay1 x0 x1 x2 x4 x3 x5 (ix2 r j) = layerA A0 A1 A2 A3 A4 A5 (ix2 i j) := by
  subst h2 h3 h4
  rw [tile0_apply]
  unfold layerA denseAt
  simp only [h0, h1, h5]

section Layer0
variable (V : (c : Dev nD) → (b : Ref sig .tc) → Buf (Elt Ideal) ((c : Thread nD τ).loc b))

/-- The printed index maps over the ten tiles: the row-blocked windows (mean, layer input, mask, result) sit at row block
    `t`, column block 0; the weights and the bias row at block (0, 0). -/
theorem tiles0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `r` of the neighbour mean's tile at point `t` is row `5000 t + r` of the array. -/
theorem meanTile0 (c : Dev nD) (t : Fin cfg0.N) (r : Fin 5000) (i : Fin 50000) (hi : i.val = t.val * 5000 + r.val) (k : Fin 128) :
    (iblk0 (F := Ideal) V c 0 t : Vec Ideal S5000x128 .f32) (ix2 r k) = (V c main_v38 : FVec Ideal S50000x128 .f32) (ix2 i k) := by
  obtain ⟨e0, e1, -⟩ := tiles0 t
  unfold iblk0
  rw [View.read_apply]
  show (V c main_v38 : FVec Ideal S50000x128 .f32) _ = (V c main_v38 : FVec Ideal S50000x128 .f32) _
  refine congrArg (V c main_v38 : FVec Ideal S50000x128 .f32) (funext fun a => Fin.ext ?_)
  match a with
  | ⟨0, _⟩ => show win0_0.index t (0 : Fin 2) * 5000 + 1 * r.val = i.val; rw [e0, hi]; omega
  | ⟨1, _⟩ => show win0_0.index t (1 : Fin 2) * 128 + 1 * k.val = k.val; rw [e1]; omega

/-- Row `r` of the layer input's tile at point `t` is row `5000 t + r` of the array. -/
theorem featTile0 (c : Dev nD) (t : Fin cfg0.N) (r : Fin 5000) (i : Fin 50000) (hi : i.val = t.val * 5000 + r.val) (k : Fin 128) :
    (iblk0 (F := Ideal) V c 1 t : Vec Ideal S5000x128 .f32) (ix2 r k) = (V c main_arg0 : FVec Ideal S50000x128 .f32) (ix2 i k) := by
  obtain ⟨-, -, e0, e1, -⟩ := tiles0 t
  unfold iblk0
  rw [View.read_apply]
  show (V c main_arg0 : FVec Ideal S50000x128 .f32) _ = (V c main_arg0 : FVec Ideal S50000x128 .f32) _
  refine congrArg (V c main_arg0 : FVec Ideal S50000x128 .f32) (funext fun a => Fin.ext ?_)
  match a with
  | ⟨0, _⟩ => show win0_1.index t (0 : Fin 2) * 5000 + 1 * r.val = i.val; rw [e0, hi]; omega
  | ⟨1, _⟩ => show win0_1.index t (1 : Fin 2) * 128 + 1 * k.val = k.val; rw [e1]; omega

/-- Row `r` of the mask's tile at point `t` is row `5000 t + r` of the array. -/
theorem maskTile0 (c : Dev nD) (t : Fin cfg0.N) (r : Fin 5000) (i : Fin 50000) (hi : i.val = t.val * 5000 + r.val) (k : Fin 128) :
    (iblk0 (F := Ideal) V c 5 t : Vec Ideal S5000x128 .f32) (ix2 r k) = (V c main_v14 : FVec Ideal S50000x128 .f32) (ix2 i k) := by
  obtain ⟨-, -, -, -, -, -, -, -, -, -, e0, e1, -⟩ := tiles0 t
  unfold iblk0
  rw [View.read_apply]
  show (V c main_v14 : FVec Ideal S50000x128 .f32) _ = (V c main_v14 : FVec Ideal S50000x128 .f32) _
  refine congrArg (V c main_v14 : FVec Ideal S50000x128 .f32) (funext fun a => Fin.ext ?_)
  match a with
  | ⟨0, _⟩ => show win0_5.index t (0 : Fin 2) * 5000 + 1 * r.val = i.val; rw [e0, hi]; omega
  | ⟨1, _⟩ => show win0_5.index t (1 : Fin 2) * 128 + 1 * k.val = k.val; rw [e1]; omega

/-- At every point the first weight matrix's block is the whole matrix. -/
theorem wlBlock0 (c : Dev nD) (t : Fin cfg0.N) :
    (iblk0 (F := Ideal) V c 2 t : Vec Ideal S128x128 .f32) = (V c main_v4 : FVec Ideal S128x128 .f32) := by
  obtain ⟨-, -, -, -, e0, e1, -⟩ := tiles0 t
  funext y
  unfold iblk0
  rw [View.read_apply]
  show (V c main_v4 : FVec Ideal S128x128 .f32) _ = (V c main_v4 : FVec Ideal S128x128 .f32) _
  refine congrArg (V c main_v4 : FVec Ideal S128x128 .f32) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- At every point the bias row's block is the whole row. -/
theorem biasBlock0 (c : Dev nD) (t : Fin cfg0.N) :
    (iblk0 (F := Ideal) V c 3 t : Vec Ideal S1x128 .f32) = (V c main_v39 : FVec Ideal S1x128 .f32) := by
  obtain ⟨-, -, -, -, -, -, e0, e1, -⟩ := tiles0 t
  funext y
  unfold iblk0
  rw [View.read_apply]
  show (V c main_v39 : FVec Ideal S1x128 .f32) _ = (V c main_v39 : FVec Ideal S1x128 .f32) _
  refine congrArg (V c main_v39 : FVec Ideal S1x128 .f32) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- At every point the second weight matrix's block is the whole matrix. -/
theorem wrBlock0 (c : Dev nD) (t : Fin cfg0.N) :
    (iblk0 (F := Ideal) V c 4 t : Vec Ideal S128x128 .f32) = (V c main_v5 : FVec Ideal S128x128 .f32) := by
  obtain ⟨-, -, -, -, -, -, -, -, e0, e1, -⟩ := tiles0 t
  funext y
  unfold iblk0
  rw [View.read_apply]
  show (V c main_v5 : FVec Ideal S128x128 .f32) _ = (V c main_v5 : FVec Ideal S128x128 .f32) _
  refine congrArg (V c main_v5 : FVec Ideal S128x128 .f32) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- What a write-back takes from the result's staging buffer, at an index of the tile: the buffer at that index. -/
theorem outTile0_cut {α : Type} (t : Fin cfg0.N) (X : S5000x128.Idx → α) (y : ((cfg0.win 6).xblock (grid0.coords t)).Idx) :
    (cfg0.win 6).cut (grid0.coords t) X y = X (ix2 (⟨(y 0).val, (y 0).isLt⟩ : Fin 5000) (⟨(y 1).val, (y 1).isLt⟩ : Fin 128)) :=
  congrArg X (funext fun a => by match a with | ⟨0, _⟩ => rfl | ⟨1, _⟩ => rfl)

/-- The result's block at point `t` reads a whole array at row `5000 t + r`. -/
theorem outTile0_read (G : FVec Ideal S50000x128 .f32) (t : Fin cfg0.N) (y : ((cfg0.win 6).xblock (grid0.coords t)).Idx)
    (i : Fin 50000) (hi : i.val = t.val * 5000 + (y 0).val) :
    ((cfg0.win 6).blk t).view.read (Elt Ideal) G y = G (ix2 i (⟨(y 1).val, (y 1).isLt⟩ : Fin 128)) := by
  obtain ⟨-, -, -, -, -, -, -, -, -, -, -, -, e0, e1⟩ := tiles0 t
  rw [View.read_apply]
  show G _ = G _
  refine congrArg G (funext fun a => Fin.ext ?_)
  match a with
  | ⟨0, _⟩ => show win0_6.index t (0 : Fin 2) * 5000 + 1 * (y 0).val = i.val; rw [e0, hi]; omega
  | ⟨1, _⟩ => show win0_6.index t (1 : Fin 2) * 128 + 1 * (y 1).val = (y 1).val; rw [e1]; omega

/-- What point `t` writes back is its tile of the hidden layer of the arrays the region finds. -/
theorem tile0_written (c : Dev nD) (t : Fin cfg0.N) :
    (dat0 (F := Ideal) V c).flushed 6 t
      = ((cfg0.win 6).blk t).view.read (Elt Ideal)
          (layerA (V c main_v38) (V c main_arg0) (V c main_v4) (V c main_v39) (V c main_v5) (V c main_v14)) := by
  show (cfg0.win 6).cut (grid0.coords t) ((dat0 V c).after 6 t) = _
  rw [after0_6]
  unfold out0_6
  rw [View.canon_unit_zero zeroOffsets]
  simp only [View.ld_unit_zero (S := S5000x128) zeroOffsets, View.ld_unit_zero (S := S128x128) zeroOffsets,
    View.ld_unit_zero (S := S1x128) zeroOffsets]
  funext y
  have hN : cfg0.N = 10 := N_0
  have ht : t.val < 10 := hN ▸ t.isLt
  have hy : (y 0).val < 5000 := (y 0).isLt
  have hi : (⟨t.val * 5000 + (y 0).val, by omega⟩ : Fin 50000).val = t.val * 5000 + (y 0).val := rfl
  rw [outTile0_cut, outTile0_read _ t y _ hi]
  exact tile0_of_layer _ _ _ _ _ _ _ _ _ _ _ _ _ _ (meanTile0 V c t _ _ hi) (featTile0 V c t _ _ hi) (maskTile0 V c t _ _ hi)
    (wlBlock0 V c t) (biasBlock0 V c t) (wrBlock0 V c t) _

/-- An index of the result array is in point `t`'s block iff each coordinate is in the block's range on its axis. -/
theorem outTile0_mem (t : Fin cfg0.N) (i : S50000x128.Idx) :
    i ∈ ((cfg0.win 6).blk t).view.set
      ↔ ∀ a : Fin 2, win0_6.index t a * S5000x128.size a ≤ (i a).val ∧ (i a).val < win0_6.index t a * S5000x128.size a + S5000x128.size a := by
  show i ∈ ((View.whole main_v40).slice (win0_6.rect t)).set ↔ _
  rw [View.set_slice_whole, Rect.mem_set_unit]
  exact Iff.rfl

/-- The ten tiles cover the array: row `r` is in the tile of point `r / 5000`. -/
theorem tiles0_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have hq : (i 0).val / 5000 < cfg0.N := by rw [hN]; omega
  obtain ⟨-, -, -, -, -, -, -, -, -, -, -, -, e0, e1⟩ := tiles0 ⟨(i 0).val / 5000, hq⟩
  refine ⟨⟨(i 0).val / 5000, hq⟩, flush0_6 _, ?_⟩
  rw [outTile0_mem]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e1]; omega

/-- THE FIRST HIDDEN LAYER: after the region the result array holds the hidden layer of the arrays the region found. -/
theorem final0 (c : Dev nD) :
    (dat0 (F := Ideal) V c).arrAt 6 cfg0.N
      = layerA (V c main_v38) (V c main_arg0) (V c main_v4) (V c main_v39) (V c main_v5) (V c main_v14) :=
  (dat0 V c).arrAt_eq_of_cover 6 (layerA (V c main_v38) (V c main_arg0) (V c main_v4) (V c main_v39) (V c main_v5) (V c main_v14))
    (fun t _ => tile0_written V c t) tiles0_cover

end Layer0

/-! ## The second hidden layer -/

/-- The second layer's tile: the two products, the bias row, the maximum with zero and the mask, at row `r`, column `j`. -/
theorem tile1_apply (x0 x1 : Vec Ideal S5000x128 .f32) (x2 x4 : Vec Ideal S128x128 .f32) (x3 : Vec Ideal S1x128 .f32)
    (x5 : Vec Ideal S5000x128 .f32) (r : Fin 5000) (j : Fin 128) :
    k1_pay1 x0 x1 x2 x4 x3 x5 (ix2 r j)
      = max ((∑ k : Fin 128, x0 (ix2 r k) * x2 (ix2 k j)) + (∑ k : Fin 128, x1 (ix2 r k) * x4 (ix2 k j)) + x3 (ix2 (0 : Fin 1) j))
          (Ideal.ofBits .f32 0x00000000#32) * x5 (ix2 r j) := by
  unfold k1_pay1
  simp only [shapeCast_self]
  rw [mulf_apply, maximumf_apply, addf_apply, addf_apply, broadcast_apply, tileDot_apply, tileDot_apply, broadcastTo_1b_ab_apply]
  rfl

/-- A tile whose row-blocked operands are rows of whole arrays (row `r` of the tile is row `i` of the array) and whose
    weights and bias are whole arrays is, at row `r`, row `i` of the hidden layer of those arrays. -/
theorem tile1_of_layer (A0 A1 A5 : FVec Ideal S50000x128 .f32) (A2 A4 : FVec Ideal S128x128 .f32) (A3 : FVec Ideal S1x128 .f32)
    (x0 x1 x5 : Vec Ideal S5000x128 .f32) (x2 x4 : Vec Ideal S128x128 .f32) (x3 : Vec Ideal S1x128 .f32)
    (r : Fin 5000) (i : Fin 50000)
    (h0 : ∀ k : Fin 128, x0 (ix2 r k) = A0 (ix2 i k)) (h1 : ∀ k : Fin 128, x1 (ix2 r k) = A1 (ix2 i k))
    (h5 : ∀ k : Fin 128, x5 (ix2 r k) = A5 (ix2 i k)) (h2 : x2 = A2) (h3 : x3 = A3) (h4 : x4 = A4) (j : Fin 128) :
    k1_pay1 x0 x1 x2 x4 x3 x5 (ix2 r j) = layerA A0 A1 A2 A3 A4 A5 (ix2 i j) := by
  subst h2 h3 h4
  rw [tile1_apply]
  unfold layerA denseAt
  simp only [h0, h1, h5]

section Layer1
variable (V : (c : Dev nD) → (b : Ref sig .tc) → Buf (Elt Ideal) ((c : Thread nD τ).loc b))

/-- The printed index maps over the ten tiles: the row-blocked windows (mean, layer input, mask, result) sit at row block
    `t`, column block 0; the weights and the bias row at block (0, 0). -/
theorem tiles1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `r` of the neighbour mean's tile at point `t` is row `5000 t + r` of the array. -/
theorem meanTile1 (c : Dev nD) (t : Fin cfg1.N) (r : Fin 5000) (i : Fin 50000) (hi : i.val = t.val * 5000 + r.val) (k : Fin 128) :
    (iblk1 (F := Ideal) V c 0 t : Vec Ideal S5000x128 .f32) (ix2 r k) = (V c main_v59 : FVec Ideal S50000x128 .f32) (ix2 i k) := by
  obtain ⟨e0, e1, -⟩ := tiles1 t
  unfold iblk1
  rw [View.read_apply]
  show (V c main_v59 : FVec Ideal S50000x128 .f32) _ = (V c main_v59 : FVec Ideal S50000x128 .f32) _
  refine congrArg (V c main_v59 : FVec Ideal S50000x128 .f32) (funext fun a => Fin.ext ?_)
  match a with
  | ⟨0, _⟩ => show win1_0.index t (0 : Fin 2) * 5000 + 1 * r.val = i.val; rw [e0, hi]; omega
  | ⟨1, _⟩ => show win1_0.index t (1 : Fin 2) * 128 + 1 * k.val = k.val; rw [e1]; omega

/-- Row `r` of the layer input's tile at point `t` is row `5000 t + r` of the array. -/
theorem featTile1 (c : Dev nD) (t : Fin cfg1.N) (r : Fin 5000) (i : Fin 50000) (hi : i.val = t.val * 5000 + r.val) (k : Fin 128) :
    (iblk1 (F := Ideal) V c 1 t : Vec Ideal S5000x128 .f32) (ix2 r k) = (V c main_v40 : FVec Ideal S50000x128 .f32) (ix2 i k) := by
  obtain ⟨-, -, e0, e1, -⟩ := tiles1 t
  unfold iblk1
  rw [View.read_apply]
  show (V c main_v40 : FVec Ideal S50000x128 .f32) _ = (V c main_v40 : FVec Ideal S50000x128 .f32) _
  refine congrArg (V c main_v40 : FVec Ideal S50000x128 .f32) (funext fun a => Fin.ext ?_)
  match a with
  | ⟨0, _⟩ => show win1_1.index t (0 : Fin 2) * 5000 + 1 * r.val = i.val; rw [e0, hi]; omega
  | ⟨1, _⟩ => show win1_1.index t (1 : Fin 2) * 128 + 1 * k.val = k.val; rw [e1]; omega

/-- Row `r` of the mask's tile at point `t` is row `5000 t + r` of the array. -/
theorem maskTile1 (c : Dev nD) (t : Fin cfg1.N) (r : Fin 5000) (i : Fin 50000) (hi : i.val = t.val * 5000 + r.val) (k : Fin 128) :
    (iblk1 (F := Ideal) V c 5 t : Vec Ideal S5000x128 .f32) (ix2 r k) = (V c main_v19 : FVec Ideal S50000x128 .f32) (ix2 i k) := by
  obtain ⟨-, -, -, -, -, -, -, -, -, -, e0, e1, -⟩ := tiles1 t
  unfold iblk1
  rw [View.read_apply]
  show (V c main_v19 : FVec Ideal S50000x128 .f32) _ = (V c main_v19 : FVec Ideal S50000x128 .f32) _
  refine congrArg (V c main_v19 : FVec Ideal S50000x128 .f32) (funext fun a => Fin.ext ?_)
  match a with
  | ⟨0, _⟩ => show win1_5.index t (0 : Fin 2) * 5000 + 1 * r.val = i.val; rw [e0, hi]; omega
  | ⟨1, _⟩ => show win1_5.index t (1 : Fin 2) * 128 + 1 * k.val = k.val; rw [e1]; omega

/-- At every point the first weight matrix's block is the whole matrix. -/
theorem wlBlock1 (c : Dev nD) (t : Fin cfg1.N) :
    (iblk1 (F := Ideal) V c 2 t : Vec Ideal S128x128 .f32) = (V c main_v6 : FVec Ideal S128x128 .f32) := by
  obtain ⟨-, -, -, -, e0, e1, -⟩ := tiles1 t
  funext y
  unfold iblk1
  rw [View.read_apply]
  show (V c main_v6 : FVec Ideal S128x128 .f32) _ = (V c main_v6 : FVec Ideal S128x128 .f32) _
  refine congrArg (V c main_v6 : FVec Ideal S128x128 .f32) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- At every point the bias row's block is the whole row. -/
theorem biasBlock1 (c : Dev nD) (t : Fin cfg1.N) :
    (iblk1 (F := Ideal) V c 3 t : Vec Ideal S1x128 .f32) = (V c main_v60 : FVec Ideal S1x128 .f32) := by
  obtain ⟨-, -, -, -, -, -, e0, e1, -⟩ := tiles1 t
  funext y
  unfold iblk1
  rw [View.read_apply]
  show (V c main_v60 : FVec Ideal S1x128 .f32) _ = (V c main_v60 : FVec Ideal S1x128 .f32) _
  refine congrArg (V c main_v60 : FVec Ideal S1x128 .f32) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- At every point the second weight matrix's block is the whole matrix. -/
theorem wrBlock1 (c : Dev nD) (t : Fin cfg1.N) :
    (iblk1 (F := Ideal) V c 4 t : Vec Ideal S128x128 .f32) = (V c main_v7 : FVec Ideal S128x128 .f32) := by
  obtain ⟨-, -, -, -, -, -, -, -, e0, e1, -⟩ := tiles1 t
  funext y
  unfold iblk1
  rw [View.read_apply]
  show (V c main_v7 : FVec Ideal S128x128 .f32) _ = (V c main_v7 : FVec Ideal S128x128 .f32) _
  refine congrArg (V c main_v7 : FVec Ideal S128x128 .f32) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What a write-back takes from the result's staging buffer, at an index of the tile: the buffer at that index. -/
theorem outTile1_cut {α : Type} (t : Fin cfg1.N) (X : S5000x128.Idx → α) (y : ((cfg1.win 6).xblock (grid1.coords t)).Idx) :
    (cfg1.win 6).cut (grid1.coords t) X y = X (ix2 (⟨(y 0).val, (y 0).isLt⟩ : Fin 5000) (⟨(y 1).val, (y 1).isLt⟩ : Fin 128)) :=
  congrArg X (funext fun a => by match a with | ⟨0, _⟩ => rfl | ⟨1, _⟩ => rfl)

/-- The result's block at point `t` reads a whole array at row `5000 t + r`. -/
theorem outTile1_read (G : FVec Ideal S50000x128 .f32) (t : Fin cfg1.N) (y : ((cfg1.win 6).xblock (grid1.coords t)).Idx)
    (i : Fin 50000) (hi : i.val = t.val * 5000 + (y 0).val) :
    ((cfg1.win 6).blk t).view.read (Elt Ideal) G y = G (ix2 i (⟨(y 1).val, (y 1).isLt⟩ : Fin 128)) := by
  obtain ⟨-, -, -, -, -, -, -, -, -, -, -, -, e0, e1⟩ := tiles1 t
  rw [View.read_apply]
  show G _ = G _
  refine congrArg G (funext fun a => Fin.ext ?_)
  match a with
  | ⟨0, _⟩ => show win1_6.index t (0 : Fin 2) * 5000 + 1 * (y 0).val = i.val; rw [e0, hi]; omega
  | ⟨1, _⟩ => show win1_6.index t (1 : Fin 2) * 128 + 1 * (y 1).val = (y 1).val; rw [e1]; omega

/-- What point `t` writes back is its tile of the hidden layer of the arrays the region finds. -/
theorem tile1_written (c : Dev nD) (t : Fin cfg1.N) :
    (dat1 (F := Ideal) V c).flushed 6 t
      = ((cfg1.win 6).blk t).view.read (Elt Ideal)
          (layerA (V c main_v59) (V c main_v40) (V c main_v6) (V c main_v60) (V c main_v7) (V c main_v19)) := by
  show (cfg1.win 6).cut (grid1.coords t) ((dat1 V c).after 6 t) = _
  rw [after1_6]
  unfold out1_6
  rw [View.canon_unit_zero zeroOffsets]
  simp only [View.ld_unit_zero (S := S5000x128) zeroOffsets, View.ld_unit_zero (S := S128x128) zeroOffsets,
    View.ld_unit_zero (S := S1x128) zeroOffsets]
  funext y
  have hN : cfg1.N = 10 := N_1
  have ht : t.val < 10 := hN ▸ t.isLt
  have hy : (y 0).val < 5000 := (y 0).isLt
  have hi : (⟨t.val * 5000 + (y 0).val, by omega⟩ : Fin 50000).val = t.val * 5000 + (y 0).val := rfl
  rw [outTile1_cut, outTile1_read _ t y _ hi]
  exact tile1_of_layer _ _ _ _ _ _ _ _ _ _ _ _ _ _ (meanTile1 V c t _ _ hi) (featTile1 V c t _ _ hi) (maskTile1 V c t _ _ hi)
    (wlBlock1 V c t) (biasBlock1 V c t) (wrBlock1 V c t) _

/-- An index of the result array is in point `t`'s block iff each coordinate is in the block's range on its axis. -/
theorem outTile1_mem (t : Fin cfg1.N) (i : S50000x128.Idx) :
    i ∈ ((cfg1.win 6).blk t).view.set
      ↔ ∀ a : Fin 2, win1_6.index t a * S5000x128.size a ≤ (i a).val ∧ (i a).val < win1_6.index t a * S5000x128.size a + S5000x128.size a := by
  show i ∈ ((View.whole main_v61).slice (win1_6.rect t)).set ↔ _
  rw [View.set_slice_whole, Rect.mem_set_unit]
  exact Iff.rfl

/-- The ten tiles cover the array: row `r` is in the tile of point `r / 5000`. -/
theorem tiles1_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have hq : (i 0).val / 5000 < cfg1.N := by rw [hN]; omega
  obtain ⟨-, -, -, -, -, -, -, -, -, -, -, -, e0, e1⟩ := tiles1 ⟨(i 0).val / 5000, hq⟩
  refine ⟨⟨(i 0).val / 5000, hq⟩, flush1_6 _, ?_⟩
  rw [outTile1_mem]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hq⟩ (1 : Fin 2) * 128 ≤ (i 1).val
      ∧ (i 1).val < win1_6.index ⟨(i 0).val / 5000, hq⟩ (1 : Fin 2) * 128 + 128
    rw [e1]; omega

/-- THE SECOND HIDDEN LAYER: after the region the result array holds the hidden layer of the arrays the region found. -/
theorem final1 (c : Dev nD) :
    (dat1 (F := Ideal) V c).arrAt 6 cfg1.N
      = layerA (V c main_v59) (V c main_v40) (V c main_v6) (V c main_v60) (V c main_v7) (V c main_v19) :=
  (dat1 V c).arrAt_eq_of_cover 6 (layerA (V c main_v59) (V c main_v40) (V c main_v6) (V c main_v60) (V c main_v7) (V c main_v19))
    (fun t _ => tile1_written V c t) tiles1_cover

end Layer1

end Cert.KernelIdeal.Hand

end
-- ==== Proof.RegionB.lean ====
/-
  The third region's result array as one function of the arrays the region finds.

  The last GraphSAGE layer runs over ten row tiles of 5000 rows.  At grid point `t` the body reads tile `t` of the
  neighbour mean and of the second hidden layer, the two transposed weight matrices and the bias row whole, and stores
  `mean_t · wlᵀ + h_t · wrᵀ + bias` into tile `t` of the result (the operands' rounding to bf16 is the identity on the
  extended reals, and each matrix product starts from the zero accumulator).

  Read at row `r`, column `j` of a tile the body is `Σₖ mean_t[r,k]·wlᵀ[k,j] + Σₖ h_t[r,k]·wrᵀ[k,j] + bias[0,j]`
  (`tile_dense`: each product is the sum over its one contraction coordinate, the bias row is broadcast down the rows).
  Row `r` of tile `t` is row `5000 t + r` of the array (`out_emb`, `mean_tile`, `hidden_tile`), so what point `t`
  writes back is tile `t` of `layerB` of the whole arrays (`flushed_eq`); row `i` lies in tile `i / 5000`, so the ten
  tiles cover the result (`tiles_cover`) and the array ends holding `layerB` (`final2`).
-/
import proofs.«157667_j33320356282736_1_alg».proof.Proof.Terms
import proofs.«157667_j33320356282736_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace RegB

/-- The left operand's row coordinate at an output index is the output's row. -/
theorem tile_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Its column coordinate is the contraction index. -/
theorem tile_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contraction index. -/
theorem tile_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Its column coordinate is the output's column. -/
theorem tile_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One matrix product of a tile into the zero accumulator, at row `r` and column `j`: the sum over the 128 shared
    coordinates of the products. -/
theorem tile_product {φ₁ φ₂ : FTy} (a : FVec Ideal S5000x128 φ₁) (b : FVec Ideal S128x64 φ₂) (r : Fin 5000) (j : Fin 64) :
    matmul dot_S5000x128_S128x64_S5000x64_1_0_0_1_n_n none a b (constant (F := Ideal) S5000x64 .f32 0x00000000#32) (ix2 r j)
      = ∑ k : Fin 128, a (ix2 r k) * b (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact tile_lhs_row _ _
    | ⟨1, _⟩ => exact (tile_lhs_col _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (tile_rhs_row _ _).trans hk
    | ⟨1, _⟩ => exact tile_rhs_col _ _)
  rw [el, er]

/-- The last layer's body on one tile of 5000 rows, at row `r` and column `j`: the two matrix products and the bias. -/
theorem tile_dense (x0 x1 : Vec Ideal S5000x128 .f32) (x2 x4 : Vec Ideal S128x64 .f32) (x3 : Vec Ideal S1x64 .f32)
    (r : Fin 5000) (j : Fin 64) :
    k2_pay1 x0 x1 x2 x4 x3 (ix2 r j)
      = (∑ k : Fin 128, x0 (ix2 r k) * x2 (ix2 k j)) + (∑ k : Fin 128, x1 (ix2 r k) * x4 (ix2 k j)) + x3 (ix2 (0 : Fin 1) j) := by
  unfold k2_pay1
  simp only [shapeCast_self]
  rw [addf_apply, addf_apply, tile_product, tile_product, broadcastTo_1b_ab_apply]
  rfl

/-! ## From the tiles to the array -/

theorem zero_offsets : (![0, 0] : Fin 2 → Nat) = fun _ => 0 := funext fun a => by fin_cases a <;> rfl

/-- The block indices at grid point `t`, decided over the ten points: the two feature arrays and the result move by
    row tiles, tile `t` at point `t`; the weights and the bias row stay whole. -/
theorem tile_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A tile of the result written back whole: the write-back's part of a tile is the tile. -/
theorem out_cut (t : Fin cfg2.N) (X : Vec Ideal S5000x64 .f32) (y : ((cfg2.win 5).xblock (grid2.coords t)).Idx) :
    (cfg2.win 5).cut (grid2.coords t) X y = X (ix2 ⟨(y 0).val, (y 0).isLt⟩ ⟨(y 1).val, (y 1).isLt⟩) :=
  congrArg X (funext fun a => Fin.ext (by match a with | ⟨0, _⟩ => rfl | ⟨1, _⟩ => rfl))

/-- A whole-array function read through the result's tile at point `t`. -/
theorem out_read (t : Fin cfg2.N) (G : FVec Ideal S50000x64 .f32) (y : ((cfg2.win 5).xblock (grid2.coords t)).Idx) :
    ((cfg2.win 5).blk t).view.read (Elt Ideal) G y = G (((cfg2.win 5).blk t).view.emb y) := rfl

/-- Row `y₀` of the result's tile `t` is row `5000 t + y₀` of the array; the columns are the array's. -/
theorem out_emb (t : Fin cfg2.N) (y : ((cfg2.win 5).xblock (grid2.coords t)).Idx) :
    ((((cfg2.win 5).blk t).view.emb y) 0).val = 5000 * t.val + (y 0).val
      ∧ ((((cfg2.win 5).blk t).view.emb y) 1).val = (y 1).val := by
  obtain ⟨-, -, -, -, -, -, -, -, -, -, e0, e1⟩ := tile_index t
  constructor
  · show win2_5.index t (0 : Fin 2) * 5000 + 1 * (y 0).val = _
    rw [e0]; omega
  · show win2_5.index t (1 : Fin 2) * 64 + 1 * (y 1).val = _
    rw [e1]; omega

/-- The neighbour mean's tile at point `t` is rows `5000 t … 5000 t + 4999` of the array. -/
theorem mean_tile (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v80 : S50000x128.Idx → Elt Ideal .f32) k := by
  obtain ⟨e0, e1, -⟩ := tile_index t
  unfold iblk2
  rw [View.read_apply]
  show V c main_v80 _ = V c main_v80 _
  refine congrArg (V c main_v80) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The hidden layer's tile at point `t` likewise. -/
theorem hidden_tile (c : Dev nD) (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v61 : S50000x128.Idx → Elt Ideal .f32) k := by
  obtain ⟨-, -, e0, e1, -⟩ := tile_index t
  unfold iblk2
  rw [View.read_apply]
  show V c main_v61 _ = V c main_v61 _
  refine congrArg (V c main_v61) (funext fun a => Fin.ext ?_)
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The neighbour weights' block at every point is the whole matrix. -/
theorem wl_whole (c : Dev nD) (t : Fin cfg2.N) (x : S128x64.Idx) :
    (iblk2 V c 2 t : Vec Ideal S128x64 .f32) x = (V c main_v8 : S128x64.Idx → Elt Ideal .f32) x := by
  obtain ⟨-, -, -, -, e0, e1, -⟩ := tile_index t
  unfold iblk2
  rw [View.read_apply]
  show V c main_v8 _ = V c main_v8 _
  refine congrArg (V c main_v8) (funext fun a => Fin.ext ?_)
  match a with
  | ⟨0, _⟩ => show win2_2.index t (0 : Fin 2) * 128 + 1 * (x 0).val = (x 0).val; rw [e0]; omega
  | ⟨1, _⟩ => show win2_2.index t (1 : Fin 2) * 64 + 1 * (x 1).val = (x 1).val; rw [e1]; omega

/-- The bias row's block at every point is the whole row. -/
theorem bias_whole (c : Dev nD) (t : Fin cfg2.N) (x : S1x64.Idx) :
    (iblk2 V c 3 t : Vec Ideal S1x64 .f32) x = (V c main_v81 : S1x64.Idx → Elt Ideal .f32) x := by
  obtain ⟨-, -, -, -, -, -, e0, e1, -⟩ := tile_index t
  unfold iblk2
  rw [View.read_apply]
  show V c main_v81 _ = V c main_v81 _
  refine congrArg (V c main_v81) (funext fun a => Fin.ext ?_)
  match a with
  | ⟨0, _⟩ => show win2_3.index t (0 : Fin 2) * 1 + 1 * (x 0).val = (x 0).val; rw [e0]; omega
  | ⟨1, _⟩ => show win2_3.index t (1 : Fin 2) * 64 + 1 * (x 1).val = (x 1).val; rw [e1]; omega

/-- The self weights' block at every point is the whole matrix. -/
theorem wr_whole (c : Dev nD) (t : Fin cfg2.N) (x : S128x64.Idx) :
    (iblk2 V c 4 t : Vec Ideal S128x64 .f32) x = (V c main_v9 : S128x64.Idx → Elt Ideal .f32) x := by
  obtain ⟨-, -, -, -, -, -, -, -, e0, e1, -⟩ := tile_index t
  unfold iblk2
  rw [View.read_apply]
  show V c main_v9 _ = V c main_v9 _
  refine congrArg (V c main_v9) (funext fun a => Fin.ext ?_)
  match a with
  | ⟨0, _⟩ => show win2_4.index t (0 : Fin 2) * 128 + 1 * (x 0).val = (x 0).val; rw [e0]; omega
  | ⟨1, _⟩ => show win2_4.index t (1 : Fin 2) * 64 + 1 * (x 1).val = (x 1).val; rw [e1]; omega

/-- The body on tiles that are the arrays' rows is the layer at the array's index: over any tiles `b₀ … b₄` that read
    the arrays where row `r` of the tile is row `i₀` of the array and column `j` is column `i₁`. -/
theorem dense_of_tiles (mean x : FVec Ideal S50000x128 .f32) (wlT wrT : FVec Ideal S128x64 .f32) (blr : FVec Ideal S1x64 .f32)
    (b0 b1 : Vec Ideal S5000x128 .f32) (b2 b4 : Vec Ideal S128x64 .f32) (b3 : Vec Ideal S1x64 .f32)
    (r : Fin 5000) (j : Fin 64) (i : S50000x64.Idx)
    (h0 : ∀ k : Fin 128, b0 (ix2 r k) = mean (ix2 (⟨(i 0).val, (i 0).isLt⟩ : Fin 50000) k))
    (h1 : ∀ k : Fin 128, b1 (ix2 r k) = x (ix2 (⟨(i 0).val, (i 0).isLt⟩ : Fin 50000) k))
    (h2 : ∀ k : Fin 128, b2 (ix2 k j) = wlT (ix2 k (⟨(i 1).val, (i 1).isLt⟩ : Fin 64)))
    (h4 : ∀ k : Fin 128, b4 (ix2 k j) = wrT (ix2 k (⟨(i 1).val, (i 1).isLt⟩ : Fin 64)))
    (h3 : b3 (ix2 (0 : Fin 1) j) = blr (ix2 (0 : Fin 1) (⟨(i 1).val, (i 1).isLt⟩ : Fin 64))) :
    k2_pay1 b0 b1 b2 b4 b3 (ix2 r j) = layerB mean x wlT blr wrT i := by
  rw [tile_dense]
  unfold layerB denseAt
  simp only [h0, h1, h2, h4, h3]

/-- WHAT POINT `t` WRITES BACK is tile `t` of the last layer of the arrays the region finds. -/
theorem flushed_eq (c : Dev nD) (t : Fin cfg2.N) :
    (dat2 (F := Ideal) V c).flushed 5 t
      = ((cfg2.win 5).blk t).view.read (Elt Ideal) (layerB (V c main_v80) (V c main_v61) (V c main_v8) (V c main_v81) (V c main_v9)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x64) zero_offsets,
    View.ld_unit_zero (S := S1x64) zero_offsets]
  funext y
  obtain ⟨r0, r1⟩ := out_emb t y
  refine (out_cut t _ y).trans ((dense_of_tiles _ _ _ _ _ _ _ _ _ _ _ _ _ ?_ ?_ ?_ ?_ ?_).trans (out_read t _ y).symm)
  · intro k; exact mean_tile V c t _ _ r0 rfl
  · intro k; exact hidden_tile V c t _ _ r0 rfl
  · intro k; exact (wl_whole V c t _).trans (congrArg (V c main_v8) (funext fun a => Fin.ext (by match a with | ⟨0, _⟩ => rfl | ⟨1, _⟩ => exact r1.symm)))
  · intro k; exact (wr_whole V c t _).trans (congrArg (V c main_v9) (funext fun a => Fin.ext (by match a with | ⟨0, _⟩ => rfl | ⟨1, _⟩ => exact r1.symm)))
  · exact (bias_whole V c t _).trans (congrArg (V c main_v81) (funext fun a => Fin.ext (by match a with | ⟨0, _⟩ => rfl | ⟨1, _⟩ => exact r1.symm)))

/-- An index of the array is in point `t`'s tile iff each coordinate is in the tile's range on its axis. -/
theorem mem_tile (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v82).slice (win2_5.rect t)).set ↔ _
  rw [View.set_slice_whole, Rect.mem_set_unit]
  exact Iff.rfl

/-- Row `r` of the result lies in tile `r / 5000`, which is written back: the ten tiles cover the array. -/
theorem tiles_cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, -, -, -, -, e0, e1⟩ := tile_index t
  refine ⟨t, flush2_5 t, ?_⟩
  rw [mem_tile]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

end RegB

/-- THE RESULT ARRAY after the third region: the last layer of the arrays the region finds — the neighbour mean, the
    second hidden layer, the two transposed weight matrices and the bias row. -/
theorem final2 (c : Dev nD) :
    (dat2 (F := Ideal) V c).arrAt 5 cfg2.N = layerB (V c main_v80) (V c main_v61) (V c main_v8) (V c main_v81) (V c main_v9) :=
  (dat2 (F := Ideal) V c).arrAt_eq_of_cover 5 (layerB (V c main_v80) (V c main_v61) (V c main_v8) (V c main_v81) (V c main_v9))
    (fun t _ => RegB.flushed_eq V c t) RegB.tiles_cover

end Cert.KernelIdeal.Hand

end
-- ==== Proof.HostK.lean ====
/-
  What the host operations ahead of each of the three calls leave in the buffers the calls read.

  Each stretch of host operations is read over an arbitrary valuation `W` of the buffers before it.  Every operation
  writes one buffer with its function of the buffers it reads and leaves the others alone, so the contents of a result
  buffer after the stretch is the composition of those functions along the chain that feeds it, applied to the contents
  before the stretch; a buffer no operation writes holds what it held.  The compositions are the named functions of
  the shared building blocks: the neighbour mean `agg`, the edge rows `srcOf` / `dstOf`, the dropout mask `maskOf`,
  the transposes and the bias rows.
-/
import proofs.«157667_j33320356282736_1_alg».proof.Proof.Terms
import proofs.«157667_j33320356282736_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## Before the first call

The fifty host operations ahead of the first layer's call: the two rows of the edge list, the six weight transposes,
the two dropout masks, the neighbour mean of the input features and the first bias as a one-row matrix.  Each result
buffer holds the named function of the argument buffers' contents; the arguments themselves are left as they were. -/

/-- The neighbour mean of the input features over the edge list. -/
theorem s0_mean : StableHlo.after hostOps0 W (Proc.devRef .tc main_v38) = agg (W (Proc.devRef .tc main_arg0)) (srcOf (W (Proc.devRef .tc main_arg12))) (dstOf (W (Proc.devRef .tc main_arg12))) := by
  after_results_simp
  rfl
/-- The edges' source nodes. -/
theorem s0_src : StableHlo.after hostOps0 W (Proc.devRef .tc main_v1) = srcOf (W (Proc.devRef .tc main_arg12)) := by
  after_results_simp
  rfl
/-- The edges' destination nodes. -/
theorem s0_dst : StableHlo.after hostOps0 W (Proc.devRef .tc main_v3) = dstOf (W (Proc.devRef .tc main_arg12)) := by
  after_results_simp
  rfl
/-- A weight matrix transposed. -/
theorem s0_wl0 : StableHlo.after hostOps0 W (Proc.devRef .tc main_v4) = tr128 (W (Proc.devRef .tc main_arg3)) := by
  after_results_simp
  rfl
/-- A weight matrix transposed. -/
theorem s0_wr0 : StableHlo.after hostOps0 W (Proc.devRef .tc main_v5) = tr128 (W (Proc.devRef .tc main_arg5)) := by
  after_results_simp
  rfl
/-- A weight matrix transposed. -/
theorem s0_wl1 : StableHlo.after hostOps0 W (Proc.devRef .tc main_v6) = tr128 (W (Proc.devRef .tc main_arg6)) := by
  after_results_simp
  rfl
/-- A weight matrix transposed. -/
theorem s0_wr1 : StableHlo.after hostOps0 W (Proc.devRef .tc main_v7) = tr128 (W (Proc.devRef .tc main_arg8)) := by
  after_results_simp
  rfl
/-- A weight matrix transposed. -/
theorem s0_wl2 : StableHlo.after hostOps0 W (Proc.devRef .tc main_v8) = tr64 (W (Proc.devRef .tc main_arg9)) := by
  after_results_simp
  rfl
/-- A weight matrix transposed. -/
theorem s0_wr2 : StableHlo.after hostOps0 W (Proc.devRef .tc main_v9) = tr64 (W (Proc.devRef .tc main_arg11)) := by
  after_results_simp
  rfl
/-- The first layer's dropout mask. -/
theorem s0_mask1 : StableHlo.after hostOps0 W (Proc.devRef .tc main_v14) = maskOf (W (Proc.devRef .tc main_arg1)) := by
  after_results_simp
  rfl
/-- The second layer's dropout mask. -/
theorem s0_mask2 : StableHlo.after hostOps0 W (Proc.devRef .tc main_v19) = maskOf (W (Proc.devRef .tc main_arg2)) := by
  after_results_simp
  rfl
/-- The first layer's bias as a one-row matrix. -/
theorem s0_b0 : StableHlo.after hostOps0 W (Proc.devRef .tc main_v39) = row128 (W (Proc.devRef .tc main_arg4)) := by
  after_results_simp
  rfl
/-- No operation of the stretch writes this argument. -/
theorem s0_x : StableHlo.after hostOps0 W (Proc.devRef .tc main_arg0) = W (Proc.devRef .tc main_arg0) := by
  after_results_simp
/-- No operation of the stretch writes this argument. -/
theorem s0_bl1 : StableHlo.after hostOps0 W (Proc.devRef .tc main_arg7) = W (Proc.devRef .tc main_arg7) := by
  after_results_simp
/-- No operation of the stretch writes this argument. -/
theorem s0_bl2 : StableHlo.after hostOps0 W (Proc.devRef .tc main_arg10) = W (Proc.devRef .tc main_arg10) := by
  after_results_simp

/-! ## Before the second call

The twenty-six host operations between the first and the second call: the neighbour mean of the first hidden layer and
the second bias as a one-row matrix; what the second and third calls read besides is left as it was. -/

/-- The neighbour mean of the first hidden layer. -/
theorem s1_mean : StableHlo.after hostOps1 W (Proc.devRef .tc main_v59) = agg (W (Proc.devRef .tc main_v40)) (W (Proc.devRef .tc main_v1)) (W (Proc.devRef .tc main_v3)) := by
  after_results_simp
  rfl
/-- The second layer's bias as a one-row matrix. -/
theorem s1_b1 : StableHlo.after hostOps1 W (Proc.devRef .tc main_v60) = row128 (W (Proc.devRef .tc main_arg7)) := by
  after_results_simp
  rfl
/-- No operation of the stretch writes this buffer. -/
theorem s1_keep_main_v40 : StableHlo.after hostOps1 W (Proc.devRef .tc main_v40) = W (Proc.devRef .tc main_v40) := by
  after_results_simp
/-- No operation of the stretch writes this buffer. -/
theorem s1_keep_main_v6 : StableHlo.after hostOps1 W (Proc.devRef .tc main_v6) = W (Proc.devRef .tc main_v6) := by
  after_results_simp
/-- No operation of the stretch writes this buffer. -/
theorem s1_keep_main_v7 : StableHlo.after hostOps1 W (Proc.devRef .tc main_v7) = W (Proc.devRef .tc main_v7) := by
  after_results_simp
/-- No operation of the stretch writes this buffer. -/
theorem s1_keep_main_v19 : StableHlo.after hostOps1 W (Proc.devRef .tc main_v19) = W (Proc.devRef .tc main_v19) := by
  after_results_simp
/-- No operation of the stretch writes this buffer. -/
theorem s1_keep_main_v1 : StableHlo.after hostOps1 W (Proc.devRef .tc main_v1) = W (Proc.devRef .tc main_v1) := by
  after_results_simp
/-- No operation of the stretch writes this buffer. -/
theorem s1_keep_main_v3 : StableHlo.after hostOps1 W (Proc.devRef .tc main_v3) = W (Proc.devRef .tc main_v3) := by
  after_results_simp
/-- No operation of the stretch writes this buffer. -/
theorem s1_keep_main_v8 : StableHlo.after hostOps1 W (Proc.devRef .tc main_v8) = W (Proc.devRef .tc main_v8) := by
  after_results_simp
/-- No operation of the stretch writes this buffer. -/
theorem s1_keep_main_v9 : StableHlo.after hostOps1 W (Proc.devRef .tc main_v9) = W (Proc.devRef .tc main_v9) := by
  after_results_simp
/-- No operation of the stretch writes this buffer. -/
theorem s1_keep_main_arg10 : StableHlo.after hostOps1 W (Proc.devRef .tc main_arg10) = W (Proc.devRef .tc main_arg10) := by
  after_results_simp

/-! ## Before the third call

The twenty-six host operations between the second and the third call: the neighbour mean of the second hidden layer
and the last bias as a one-row matrix; the last layer's weights and the second hidden layer are left as they were. -/

/-- The neighbour mean of the second hidden layer. -/
theorem s2_mean : StableHlo.after hostOps2 W (Proc.devRef .tc main_v80) = agg (W (Proc.devRef .tc main_v61)) (W (Proc.devRef .tc main_v1)) (W (Proc.devRef .tc main_v3)) := by
  after_results_simp
  rfl
/-- The last layer's bias as a one-row matrix. -/
theorem s2_b2 : StableHlo.after hostOps2 W (Proc.devRef .tc main_v81) = row64 (W (Proc.devRef .tc main_arg10)) := by
  after_results_simp
  rfl
/-- No operation of the stretch writes this buffer. -/
theorem s2_keep_main_v61 : StableHlo.after hostOps2 W (Proc.devRef .tc main_v61) = W (Proc.devRef .tc main_v61) := by
  after_results_simp
/-- No operation of the stretch writes this buffer. -/
theorem s2_keep_main_v8 : StableHlo.after hostOps2 W (Proc.devRef .tc main_v8) = W (Proc.devRef .tc main_v8) := by
  after_results_simp
/-- No operation of the stretch writes this buffer. -/
theorem s2_keep_main_v9 : StableHlo.after hostOps2 W (Proc.devRef .tc main_v9) = W (Proc.devRef .tc main_v9) := by
  after_results_simp

end Cert.KernelIdeal.Hand

end
-- ==== Proof.KernelValue.lean ====
/-
  The kernel program's result, read back to the arguments.

  At the end of the run the result array holds the last boundary's contents.  Walking back through the chain of
  boundaries: the third pallas_call leaves in its output array the last dense layer of the arrays it found at entry
  (the neighbour mean of the second hidden layer, that layer itself, the transposed weights and the bias row); those
  were left there by the third host stretch, which computed the neighbour mean from the second pallas_call's output and
  passed the rest through; the second pallas_call's output is the hidden dense layer of what the second host stretch
  left; and so on down to the launch memory.  Each step is one equation — a pallas_call's arrays at what its
  write-backs leave, any other buffer untouched by it; a host stretch's results as the named functions of the contents
  before it — and the composition is the three-layer network `outK` of the thirteen argument arrays.
-/
import proofs.«157667_j33320356282736_1_alg».proof.Proof.KernelNamed
import proofs.«157667_j33320356282736_1_alg».proof.Proof.RegionA
import proofs.«157667_j33320356282736_1_alg».proof.Proof.RegionB
import proofs.«157667_j33320356282736_1_alg».proof.Proof.HostK
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

section Chain
variable (m : (ℓ : Loc nD τ sig) → Buf (Elt Ideal) ℓ) (ρ : Dev nD → PrngReg) (c : Dev nD)

/-- The first hidden layer of the launch memory's argument arrays. -/
def l1 : FVec Ideal S50000x128 .f32 := h1K (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg12))
/-- The second hidden layer of the launch memory's argument arrays. -/
def l2 : FVec Ideal S50000x128 .f32 := h2K (l1 m ρ c) (W0 m ρ c (Proc.devRef .tc main_arg2)) (W0 m ρ c (Proc.devRef .tc main_arg6)) (W0 m ρ c (Proc.devRef .tc main_arg7)) (W0 m ρ c (Proc.devRef .tc main_arg8)) (W0 m ρ c (Proc.devRef .tc main_arg12))

/-! ### After the first pallas_call: its output array holds the first hidden layer; the buffers it does not own keep
    what the first host stretch left -/

theorem w2_h1 : W2 m ρ c (Proc.devRef .tc main_v40) = l1 m ρ c :=
  (W2_arr m ρ c 6).trans ((final0 (V1 m ρ) c).trans (by
    unfold l1 h1K
    rw [show V1 m ρ c main_v38 = _ from s0_mean (W0 m ρ c), show V1 m ρ c main_arg0 = _ from s0_x (W0 m ρ c),
      show V1 m ρ c main_v4 = _ from s0_wl0 (W0 m ρ c), show V1 m ρ c main_v39 = _ from s0_b0 (W0 m ρ c),
      show V1 m ρ c main_v5 = _ from s0_wr0 (W0 m ρ c), show V1 m ρ c main_v14 = _ from s0_mask1 (W0 m ρ c)]))
theorem w2_src : W2 m ρ c (Proc.devRef .tc main_v1) = srcOf (W0 m ρ c (Proc.devRef .tc main_arg12)) := (W2_of_ne m ρ c main_v1 (by decide)).trans (s0_src (W0 m ρ c))
theorem w2_dst : W2 m ρ c (Proc.devRef .tc main_v3) = dstOf (W0 m ρ c (Proc.devRef .tc main_arg12)) := (W2_of_ne m ρ c main_v3 (by decide)).trans (s0_dst (W0 m ρ c))
theorem w2_wl1 : W2 m ρ c (Proc.devRef .tc main_v6) = tr128 (F := Ideal) (W0 m ρ c (Proc.devRef .tc main_arg6)) := (W2_of_ne m ρ c main_v6 (by decide)).trans (s0_wl1 (W0 m ρ c))
theorem w2_wr1 : W2 m ρ c (Proc.devRef .tc main_v7) = tr128 (F := Ideal) (W0 m ρ c (Proc.devRef .tc main_arg8)) := (W2_of_ne m ρ c main_v7 (by decide)).trans (s0_wr1 (W0 m ρ c))
theorem w2_mask2 : W2 m ρ c (Proc.devRef .tc main_v19) = maskOf (F := Ideal) (W0 m ρ c (Proc.devRef .tc main_arg2)) := (W2_of_ne m ρ c main_v19 (by decide)).trans (s0_mask2 (W0 m ρ c))
theorem w2_wl2 : W2 m ρ c (Proc.devRef .tc main_v8) = tr64 (F := Ideal) (W0 m ρ c (Proc.devRef .tc main_arg9)) := (W2_of_ne m ρ c main_v8 (by decide)).trans (s0_wl2 (W0 m ρ c))
theorem w2_wr2 : W2 m ρ c (Proc.devRef .tc main_v9) = tr64 (F := Ideal) (W0 m ρ c (Proc.devRef .tc main_arg11)) := (W2_of_ne m ρ c main_v9 (by decide)).trans (s0_wr2 (W0 m ρ c))
theorem w2_bl1 : W2 m ρ c (Proc.devRef .tc main_arg7) = (W0 m ρ c (Proc.devRef .tc main_arg7)) := (W2_of_ne m ρ c main_arg7 (by decide)).trans (s0_bl1 (W0 m ρ c))
theorem w2_bl2 : W2 m ρ c (Proc.devRef .tc main_arg10) = (W0 m ρ c (Proc.devRef .tc main_arg10)) := (W2_of_ne m ρ c main_arg10 (by decide)).trans (s0_bl2 (W0 m ρ c))

/-! ### After the second host stretch -/

theorem w3_mean : W3 m ρ c (Proc.devRef .tc main_v59) = agg (l1 m ρ c) (srcOf (W0 m ρ c (Proc.devRef .tc main_arg12))) (dstOf (W0 m ρ c (Proc.devRef .tc main_arg12))) :=
  (s1_mean (W2 m ρ c)).trans (by rw [w2_h1, w2_src, w2_dst])
theorem w3_h1 : W3 m ρ c (Proc.devRef .tc main_v40) = l1 m ρ c := (s1_keep_main_v40 (W2 m ρ c)).trans (w2_h1 m ρ c)
theorem w3_wl1 : W3 m ρ c (Proc.devRef .tc main_v6) = tr128 (F := Ideal) (W0 m ρ c (Proc.devRef .tc main_arg6)) := (s1_keep_main_v6 (W2 m ρ c)).trans (w2_wl1 m ρ c)
theorem w3_b1 : W3 m ρ c (Proc.devRef .tc main_v60) = row128 (F := Ideal) (W0 m ρ c (Proc.devRef .tc main_arg7)) := (s1_b1 (W2 m ρ c)).trans (congrArg row128 (w2_bl1 m ρ c))
theorem w3_wr1 : W3 m ρ c (Proc.devRef .tc main_v7) = tr128 (F := Ideal) (W0 m ρ c (Proc.devRef .tc main_arg8)) := (s1_keep_main_v7 (W2 m ρ c)).trans (w2_wr1 m ρ c)
theorem w3_mask2 : W3 m ρ c (Proc.devRef .tc main_v19) = maskOf (F := Ideal) (W0 m ρ c (Proc.devRef .tc main_arg2)) := (s1_keep_main_v19 (W2 m ρ c)).trans (w2_mask2 m ρ c)
theorem w3_src : W3 m ρ c (Proc.devRef .tc main_v1) = srcOf (W0 m ρ c (Proc.devRef .tc main_arg12)) := (s1_keep_main_v1 (W2 m ρ c)).trans (w2_src m ρ c)
theorem w3_dst : W3 m ρ c (Proc.devRef .tc main_v3) = dstOf (W0 m ρ c (Proc.devRef .tc main_arg12)) := (s1_keep_main_v3 (W2 m ρ c)).trans (w2_dst m ρ c)
theorem w3_wl2 : W3 m ρ c (Proc.devRef .tc main_v8) = tr64 (F := Ideal) (W0 m ρ c (Proc.devRef .tc main_arg9)) := (s1_keep_main_v8 (W2 m ρ c)).trans (w2_wl2 m ρ c)
theorem w3_wr2 : W3 m ρ c (Proc.devRef .tc main_v9) = tr64 (F := Ideal) (W0 m ρ c (Proc.devRef .tc main_arg11)) := (s1_keep_main_v9 (W2 m ρ c)).trans (w2_wr2 m ρ c)
theorem w3_bl2 : W3 m ρ c (Proc.devRef .tc main_arg10) = (W0 m ρ c (Proc.devRef .tc main_arg10)) := (s1_keep_main_arg10 (W2 m ρ c)).trans (w2_bl2 m ρ c)

/-! ### After the second pallas_call: its output array holds the second hidden layer -/

theorem w4_h2 : W4 m ρ c (Proc.devRef .tc main_v61) = l2 m ρ c :=
  (W4_arr m ρ c 6).trans ((final1 (V3 m ρ) c).trans (by
    unfold l2 h2K
    rw [show V3 m ρ c main_v59 = _ from w3_mean m ρ c, show V3 m ρ c main_v40 = _ from w3_h1 m ρ c,
      show V3 m ρ c main_v6 = _ from w3_wl1 m ρ c, show V3 m ρ c main_v60 = _ from w3_b1 m ρ c,
      show V3 m ρ c main_v7 = _ from w3_wr1 m ρ c, show V3 m ρ c main_v19 = _ from w3_mask2 m ρ c]))
theorem w4_src : W4 m ρ c (Proc.devRef .tc main_v1) = srcOf (W0 m ρ c (Proc.devRef .tc main_arg12)) := (W4_of_ne m ρ c main_v1 (by decide)).trans (w3_src m ρ c)
theorem w4_dst : W4 m ρ c (Proc.devRef .tc main_v3) = dstOf (W0 m ρ c (Proc.devRef .tc main_arg12)) := (W4_of_ne m ρ c main_v3 (by decide)).trans (w3_dst m ρ c)
theorem w4_wl2 : W4 m ρ c (Proc.devRef .tc main_v8) = tr64 (F := Ideal) (W0 m ρ c (Proc.devRef .tc main_arg9)) := (W4_of_ne m ρ c main_v8 (by decide)).trans (w3_wl2 m ρ c)
theorem w4_wr2 : W4 m ρ c (Proc.devRef .tc main_v9) = tr64 (F := Ideal) (W0 m ρ c (Proc.devRef .tc main_arg11)) := (W4_of_ne m ρ c main_v9 (by decide)).trans (w3_wr2 m ρ c)
theorem w4_bl2 : W4 m ρ c (Proc.devRef .tc main_arg10) = (W0 m ρ c (Proc.devRef .tc main_arg10)) := (W4_of_ne m ρ c main_arg10 (by decide)).trans (w3_bl2 m ρ c)

/-! ### After the third host stretch -/

theorem w5_mean : W5 m ρ c (Proc.devRef .tc main_v80) = agg (l2 m ρ c) (srcOf (W0 m ρ c (Proc.devRef .tc main_arg12))) (dstOf (W0 m ρ c (Proc.devRef .tc main_arg12))) :=
  (s2_mean (W4 m ρ c)).trans (by rw [w4_h2, w4_src, w4_dst])
theorem w5_h2 : W5 m ρ c (Proc.devRef .tc main_v61) = l2 m ρ c := (s2_keep_main_v61 (W4 m ρ c)).trans (w4_h2 m ρ c)
theorem w5_wl2 : W5 m ρ c (Proc.devRef .tc main_v8) = tr64 (F := Ideal) (W0 m ρ c (Proc.devRef .tc main_arg9)) := (s2_keep_main_v8 (W4 m ρ c)).trans (w4_wl2 m ρ c)
theorem w5_b2 : W5 m ρ c (Proc.devRef .tc main_v81) = row64 (F := Ideal) (W0 m ρ c (Proc.devRef .tc main_arg10)) := (s2_b2 (W4 m ρ c)).trans (congrArg row64 (w4_bl2 m ρ c))
theorem w5_wr2 : W5 m ρ c (Proc.devRef .tc main_v9) = tr64 (F := Ideal) (W0 m ρ c (Proc.devRef .tc main_arg11)) := (s2_keep_main_v9 (W4 m ρ c)).trans (w4_wr2 m ρ c)

/-! ### After the third pallas_call: the result -/

theorem w6_out : W6 m ρ c (Proc.devRef .tc main_v82)
    = outK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) :=
  (W6_arr m ρ c 5).trans ((final2 (V5 m ρ) c).trans (by
    unfold outK h3K
    rw [show V5 m ρ c main_v80 = _ from w5_mean m ρ c, show V5 m ρ c main_v61 = _ from w5_h2 m ρ c,
      show V5 m ρ c main_v8 = _ from w5_wl2 m ρ c, show V5 m ρ c main_v81 = _ from w5_b2 m ρ c,
      show V5 m ρ c main_v9 = _ from w5_wr2 m ρ c]
    rfl))

end Chain

section Run
variable (m : (ℓ : Loc nD τ sig) → Buf (Elt Ideal) ℓ) (ρ : Dev nD → PrngReg)

/-- The kernel program's run, read: every weakly fair execution terminates, nothing faulting, with the result array at
    the three layers of the launch memory's argument arrays and every argument array as launched. -/
theorem kernel_run : θ_run defs (onTc (τ := τ) (main (F := Ideal))) ⟨m, fun _ => 0, ρ⟩ (fun r => ∀ c : Dev nD,
      r.2.mem ((c.tc : Thread nD τ).loc main_v82)
        = outK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (w6_out m ρ c), (h c).2⟩) (run_named (F := Ideal) m ρ)

end Run

end Cert.KernelIdeal.Hand

end
-- ==== Proof.RefTerms.lean ====
/-
  The reference's three layers, as its program writes them: whole-array operations.

  A hidden layer is `relu (mean · wlᵀ + b + x · wrᵀ) · mask` — two host matrix products, the bias broadcast over the rows,
  the maximum with the zero array, the product with the mask —, the last layer the same sum alone.  The neighbour mean,
  the mask and the transposes are the shared host chains (`agg`, `maskOf`, `tr128`, `tr64`), carried folded.
  `outR` composes the three layers.
-/
import proofs.«157667_j33320356282736_1_alg».proof.Proof.Terms
import proofs.«157667_j33320356282736_1_alg».proof.Proof.Gen.ReferenceIdeal

noncomputable section

namespace Cert.ReferenceIdeal.Hand

open Cert.ReferenceIdeal Cert.ReferenceIdeal.Gen Idealize.ShloMosaic
open Cert.KernelIdeal.Hand (agg srcOf dstOf maskOf tr128 tr64)

/-- A hidden layer as the reference computes it. -/
def refLayerA (mean x : FVec Ideal S50000x128 .f32) (wlT : FVec Ideal S128x128 .f32) (bl : FVec Ideal S128 .f32)
    (wrT : FVec Ideal S128x128 .f32) (mask : FVec Ideal S50000x128 .f32) : FVec Ideal S50000x128 .f32 :=
  mulf
    (maximumf
      (addf
        (addf (Host.dotGeneral dot_S50000x128_S128x128_S50000x128_1_0_0_1_n_n none mean wlT)
          (broadcastInDim S50000x128 ![0, 1] bcast_S1x128_S50000x128_0_1 (broadcastInDim S1x128 ![1] bcast_S128_S1x128_1 bl)))
        (Host.dotGeneral dot_S50000x128_S128x128_S50000x128_1_0_0_1_n_n none x wrT))
      (broadcastInDim S50000x128 ![] bcast_S_S50000x128 (constant S_ .f32 0x00000000#32)))
    mask

/-- The last layer as the reference computes it. -/
def refLayerB (mean x : FVec Ideal S50000x128 .f32) (wlT : FVec Ideal S128x64 .f32) (bl : FVec Ideal S64 .f32)
    (wrT : FVec Ideal S128x64 .f32) : FVec Ideal S50000x64 .f32 :=
  addf
    (addf (Host.dotGeneral dot_S50000x128_S128x64_S50000x64_1_0_0_1_n_n none mean wlT)
      (broadcastInDim S50000x64 ![0, 1] bcast_S1x64_S50000x64_0_1 (broadcastInDim S1x64 ![1] bcast_S64_S1x64_1 bl)))
    (Host.dotGeneral dot_S50000x128_S128x64_S50000x64_1_0_0_1_n_n none x wrT)

/-- The first hidden layer of the argument arrays. -/
def h1R (x u1 : FVec Ideal S50000x128 .f32) (wl0 : FVec Ideal S128x128 .f32) (bl0 : FVec Ideal S128 .f32) (wr0 : FVec Ideal S128x128 .f32)
    (e : IVec S2x800000 32) : FVec Ideal S50000x128 .f32 :=
  refLayerA (agg x (srcOf e) (dstOf e)) x (tr128 wl0) bl0 (tr128 wr0) (maskOf u1)

/-- The second hidden layer, of the first. -/
def h2R (h1 u2 : FVec Ideal S50000x128 .f32) (wl1 : FVec Ideal S128x128 .f32) (bl1 : FVec Ideal S128 .f32) (wr1 : FVec Ideal S128x128 .f32)
    (e : IVec S2x800000 32) : FVec Ideal S50000x128 .f32 :=
  refLayerA (agg h1 (srcOf e) (dstOf e)) h1 (tr128 wl1) bl1 (tr128 wr1) (maskOf u2)

/-- The output layer, of the second hidden layer. -/
def h3R (h2 : FVec Ideal S50000x128 .f32) (wl2 : FVec Ideal S64x128 .f32) (bl2 : FVec Ideal S64 .f32) (wr2 : FVec Ideal S64x128 .f32)
    (e : IVec S2x800000 32) : FVec Ideal S50000x64 .f32 :=
  refLayerB (agg h2 (srcOf e) (dstOf e)) h2 (tr64 wl2) bl2 (tr64 wr2)

/-- The whole network of the thirteen argument arrays. -/
def outR (x u1 u2 : FVec Ideal S50000x128 .f32) (wl0 : FVec Ideal S128x128 .f32) (bl0 : FVec Ideal S128 .f32) (wr0 : FVec Ideal S128x128 .f32)
    (wl1 : FVec Ideal S128x128 .f32) (bl1 : FVec Ideal S128 .f32) (wr1 : FVec Ideal S128x128 .f32)
    (wl2 : FVec Ideal S64x128 .f32) (bl2 : FVec Ideal S64 .f32) (wr2 : FVec Ideal S64x128 .f32) (e : IVec S2x800000 32) : FVec Ideal S50000x64 .f32 :=
  h3R (h2R (h1R x u1 wl0 bl0 wr0 e) u2 wl1 bl1 wr1 e) wl2 bl2 wr2 e

end Cert.ReferenceIdeal.Hand

end
-- ==== Proof.RefRun.lean ====
/-
  The reference program's run, with its result named.

  The generated run of the reference states the result buffer as one long composed term of the argument arrays.  That term
  is, operation for operation, the three-layer network `outR` of the thirteen argument arrays: each layer's neighbour mean,
  mask and weight transposes are the shared host chains, its dense part the whole-array sum of two matrix products and the
  broadcast bias.  The first hidden layer occurs four times in the term and the second twice; naming them once is all that
  changes.  So the run ends with the result buffer at `outR` of the arguments and the arguments unchanged.
-/
import proofs.«157667_j33320356282736_1_alg».proof.Proof.RefTerms
import proofs.«157667_j33320356282736_1_alg».proof.Proof.Gen.ReferenceIdeal.Run
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (agg srcOf dstOf maskOf tr128 tr64)
open Cert.ReferenceIdeal.Value

set_option maxRecDepth 8192 in
/-- The composed term of the reference's operations is the three-layer network of the argument arrays: once the layers'
    names are opened the two sides are the same tree of operations (the shape records of the two programs have equal
    fields), so the equation holds by definition. -/
theorem res_eq (m : (ℓ : Loc nD τ sig) → Buf (Elt Ideal) ℓ) (c : Dev nD) :
    Cert.ReferenceIdeal.Value.res_main_v98 (F := Ideal) m c
      = outR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v98 outR h3R h2R h1R refLayerB refLayerA
  unfold agg srcOf dstOf maskOf tr128 tr64
  rfl

/-- On every device, from any memory with zero counters: every weakly fair execution of the reference terminates with
    its result buffer at `outR` of the argument arrays, and the arguments unchanged. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98)
          = outR (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12) :=
  (θ_run defs _ _).mono (fun _ h c => ⟨(h c).1.trans (res_eq m c), (h c).2⟩) (Cert.ReferenceIdeal.Value.run (F := Ideal) m ρ)

end Cert.ReferenceIdeal.Hand

end
-- ==== Proof.RefLayer.lean ====
/-
  The reference's dense layers, written as whole-array host operations, are the index-by-index layer functions.

  At row `i`, column `j` the reference's hidden layer is
  `max ((Σₖ mean[i,k]·wl[k,j] + b[j]) + Σₖ x[i,k]·wr[k,j]) 0 · mask[i,j]`: each host matrix product read at an index is the
  sum over the one contracted axis, the bias broadcast over the rows reads the bias at the column, the zero array reads
  zero everywhere.  The index-by-index layer adds the bias last, as row 0 of the one-row matrix the bias vector is cast
  to.  The two sums differ by the order of three summands only, and addition on the extended reals is commutative and
  associative without any finiteness condition.  The last layer is the same sum with neither the maximum nor the mask.
  The network of the reference is then the network of the kernel, layer by layer.
-/
import proofs.«157667_j33320356282736_1_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx
open Cert.KernelIdeal.Hand (layerA layerB denseAt row128 row64 agg srcOf dstOf maskOf tr128 tr64 h1K h2K h3K outK)

/-! ## The host matrix products at an index -/

/-- The product with a 128-column matrix at `(i₀, i₁)` is `Σₖ a[i₀,k]·w[k,i₁]`. -/
theorem dot128_apply (a : FVec Ideal S50000x128 .f32) (w : FVec Ideal S128x128 .f32) (i : S50000x128.Idx) :
    Host.dotGeneral (F := Ideal) dot_S50000x128_S128x128_S50000x128_1_0_0_1_n_n none a w i
      = ∑ k : Fin 128, a (ix2 (⟨(i 0).val, (i 0).isLt⟩ : Fin 50000) k) * w (ix2 k (⟨(i 1).val, (i 1).isLt⟩ : Fin 128)) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have l0 : ∀ q : dot_S50000x128_S128x128_S50000x128_1_0_0_1_n_n.contr.Idx,
      (dot_S50000x128_S128x128_S50000x128_1_0_0_1_n_n.lhsIdx i q 0).val = (i 0).val := by
    intro q
    unfold DotDims.lhsIdx
    rw [dif_neg (show ¬(0 : Fin S50000x128.rank) ∈ dot_S50000x128_S128x128_S50000x128_1_0_0_1_n_n.lhsBatch by decide),
      dif_pos (show (0 : Fin S50000x128.rank) ∈ dot_S50000x128_S128x128_S50000x128_1_0_0_1_n_n.lhsNonContracting by decide)]
    rfl
  have r1 : ∀ q : dot_S50000x128_S128x128_S50000x128_1_0_0_1_n_n.contr.Idx,
      (dot_S50000x128_S128x128_S50000x128_1_0_0_1_n_n.rhsIdx i q 1).val = (i 1).val := by
    intro q
    unfold DotDims.rhsIdx
    rw [dif_neg (show ¬(1 : Fin S128x128.rank) ∈ dot_S50000x128_S128x128_S50000x128_1_0_0_1_n_n.rhsBatch by decide),
      dif_pos (show (1 : Fin S128x128.rank) ∈ dot_S50000x128_S128x128_S50000x128_1_0_0_1_n_n.rhsNonContracting by decide)]
    rfl
  have el : dot_S50000x128_S128x128_S50000x128_1_0_0_1_n_n.lhsIdx i
      ((contrEquiv1 dot_S50000x128_S128x128_S50000x128_1_0_0_1_n_n 128 rfl rfl).symm k)
      = ix2 (⟨(i 0).val, (i 0).isLt⟩ : Fin 50000) k := funext fun a => Fin.ext (by
    match a with
    | ⟨0, _⟩ => exact l0 _
    | ⟨1, _⟩ => exact (dot_S50000x128_S128x128_S50000x128_1_0_0_1_n_n.lhsIdx_val_of_single rfl i _).trans hk)
  have er : dot_S50000x128_S128x128_S50000x128_1_0_0_1_n_n.rhsIdx i
      ((contrEquiv1 dot_S50000x128_S128x128_S50000x128_1_0_0_1_n_n 128 rfl rfl).symm k)
      = ix2 k (⟨(i 1).val, (i 1).isLt⟩ : Fin 128) := funext fun a => Fin.ext (by
    match a with
    | ⟨0, _⟩ => exact (dot_S50000x128_S128x128_S50000x128_1_0_0_1_n_n.rhsIdx_val_of_single rfl i _).trans hk
    | ⟨1, _⟩ => exact r1 _)
  rw [el, er]

/-- The product with the 64-column matrix at `(i₀, i₁)` is `Σₖ a[i₀,k]·w[k,i₁]`. -/
theorem dot64_apply (a : FVec Ideal S50000x128 .f32) (w : FVec Ideal S128x64 .f32) (i : S50000x64.Idx) :
    Host.dotGeneral (F := Ideal) dot_S50000x128_S128x64_S50000x64_1_0_0_1_n_n none a w i
      = ∑ k : Fin 128, a (ix2 (⟨(i 0).val, (i 0).isLt⟩ : Fin 50000) k) * w (ix2 k (⟨(i 1).val, (i 1).isLt⟩ : Fin 64)) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have l0 : ∀ q : dot_S50000x128_S128x64_S50000x64_1_0_0_1_n_n.contr.Idx,
      (dot_S50000x128_S128x64_S50000x64_1_0_0_1_n_n.lhsIdx i q 0).val = (i 0).val := by
    intro q
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  have r1 : ∀ q : dot_S50000x128_S128x64_S50000x64_1_0_0_1_n_n.contr.Idx,
      (dot_S50000x128_S128x64_S50000x64_1_0_0_1_n_n.rhsIdx i q 1).val = (i 1).val := by
    intro q
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl
  have el : dot_S50000x128_S128x64_S50000x64_1_0_0_1_n_n.lhsIdx i
      ((contrEquiv1 dot_S50000x128_S128x64_S50000x64_1_0_0_1_n_n 128 rfl rfl).symm k)
      = ix2 (⟨(i 0).val, (i 0).isLt⟩ : Fin 50000) k := funext fun a => Fin.ext (by
    match a with
    | ⟨0, _⟩ => exact l0 _
    | ⟨1, _⟩ => exact (dot_S50000x128_S128x64_S50000x64_1_0_0_1_n_n.lhsIdx_val_of_single rfl i _).trans hk)
  have er : dot_S50000x128_S128x64_S50000x64_1_0_0_1_n_n.rhsIdx i
      ((contrEquiv1 dot_S50000x128_S128x64_S50000x64_1_0_0_1_n_n 128 rfl rfl).symm k)
      = ix2 k (⟨(i 1).val, (i 1).isLt⟩ : Fin 64) := funext fun a => Fin.ext (by
    match a with
    | ⟨0, _⟩ => exact (dot_S50000x128_S128x64_S50000x64_1_0_0_1_n_n.rhsIdx_val_of_single rfl i _).trans hk
    | ⟨1, _⟩ => exact r1 _)
  rw [el, er]

/-! ## The bias rows at an index -/

/-- The bias vector broadcast to one row and then over the rows reads, at `(i₀, i₁)`, the bias at `i₁`. -/
theorem bias128_apply (bl : FVec Ideal S128 .f32) (i : S50000x128.Idx) :
    broadcastInDim S50000x128 ![0, 1] bcast_S1x128_S50000x128_0_1 (broadcastInDim S1x128 ![1] bcast_S128_S1x128_1 bl) i
      = bl (ix1 (⟨(i 1).val, (i 1).isLt⟩ : Fin 128)) := by
  have h1 : ∀ (y : FVec Ideal S1x128 .f32),
      broadcastInDim S50000x128 ![0, 1] bcast_S1x128_S50000x128_0_1 y i
        = y (ix2 (⟨0, Nat.one_pos⟩ : Fin 1) (⟨(i 1).val, (i 1).isLt⟩ : Fin 128)) := fun y =>
    broadcastInDim_apply _ bcast_S1x128_S50000x128_0_1 y i _ (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h1]
  exact broadcastInDim_apply _ bcast_S128_S1x128_1 bl _ _ (fun a => match a with
    | ⟨0, _⟩ => by show (i 1).val = if (128 : Nat) = 1 then 0 else (i 1).val; rw [if_neg (by decide)])

/-- The same for the last layer's 64 columns. -/
theorem bias64_apply (bl : FVec Ideal S64 .f32) (i : S50000x64.Idx) :
    broadcastInDim S50000x64 ![0, 1] bcast_S1x64_S50000x64_0_1 (broadcastInDim S1x64 ![1] bcast_S64_S1x64_1 bl) i
      = bl (ix1 (⟨(i 1).val, (i 1).isLt⟩ : Fin 64)) := by
  have h1 : ∀ (y : FVec Ideal S1x64 .f32),
      broadcastInDim S50000x64 ![0, 1] bcast_S1x64_S50000x64_0_1 y i
        = y (ix2 (⟨0, Nat.one_pos⟩ : Fin 1) (⟨(i 1).val, (i 1).isLt⟩ : Fin 64)) := fun y =>
    broadcastInDim_apply _ bcast_S1x64_S50000x64_0_1 y i _ (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  rw [h1]
  exact broadcastInDim_apply _ bcast_S64_S1x64_1 bl _ _ (fun a => match a with
    | ⟨0, _⟩ => by show (i 1).val = if (64 : Nat) = 1 then 0 else (i 1).val; rw [if_neg (by decide)])

/-- The bias vector cast to a one-row matrix reads, at `(0, j)`, the bias at `j`. -/
theorem row128_apply (bl : FVec Ideal S128 .f32) (j : Fin 128) : row128 bl (ix2 (0 : Fin 1) j) = bl (ix1 j) := by
  unfold row128
  exact shapeCast_a_1a_apply bl _ 0 j

/-- The same for the last layer's bias. -/
theorem row64_apply (bl : FVec Ideal S64 .f32) (j : Fin 64) : row64 bl (ix2 (0 : Fin 1) j) = bl (ix1 j) := by
  unfold row64
  exact shapeCast_a_1a_apply bl _ 0 j

/-- The zero array reads zero everywhere. -/
theorem zeros_apply (i : S50000x128.Idx) :
    broadcastInDim S50000x128 ![] bcast_S_S50000x128 (constant (F := Ideal) S_ .f32 0x00000000#32) i = Ideal.ofBits .f32 0x00000000#32 := by
  refine (broadcastInDim_apply _ bcast_S_S50000x128 (constant (F := Ideal) S_ .f32 0x00000000#32) i
    (fun a => a.elim0) (fun a => a.elim0)).trans ?_
  exact constant_apply _ _

/-! ## The layers -/

theorem refLayerA_eq (mean x : FVec Ideal S50000x128 .f32) (wlT : FVec Ideal S128x128 .f32) (bl : FVec Ideal S128 .f32)
    (wrT : FVec Ideal S128x128 .f32) (mask : FVec Ideal S50000x128 .f32) :
    refLayerA mean x wlT bl wrT mask = layerA mean x wlT (row128 bl) wrT mask := by
  funext i
  unfold refLayerA layerA denseAt
  simp only [mulf_apply, maximumf_apply, addf_apply]
  rw [dot128_apply, dot128_apply, bias128_apply, zeros_apply, row128_apply, add_right_comm]

theorem refLayerB_eq (mean x : FVec Ideal S50000x128 .f32) (wlT : FVec Ideal S128x64 .f32) (bl : FVec Ideal S64 .f32)
    (wrT : FVec Ideal S128x64 .f32) :
    refLayerB mean x wlT bl wrT = layerB mean x wlT (row64 bl) wrT := by
  funext i
  unfold refLayerB layerB denseAt
  simp only [addf_apply]
  rw [dot64_apply, dot64_apply, bias64_apply, row64_apply, add_right_comm]

/-! ## The network -/

theorem outR_eq (x u1 u2 : FVec Ideal S50000x128 .f32) (wl0 : FVec Ideal S128x128 .f32) (bl0 : FVec Ideal S128 .f32)
    (wr0 : FVec Ideal S128x128 .f32) (wl1 : FVec Ideal S128x128 .f32) (bl1 : FVec Ideal S128 .f32) (wr1 : FVec Ideal S128x128 .f32)
    (wl2 : FVec Ideal S64x128 .f32) (bl2 : FVec Ideal S64 .f32) (wr2 : FVec Ideal S64x128 .f32) (e : IVec S2x800000 32) :
    outR x u1 u2 wl0 bl0 wr0 wl1 bl1 wr1 wl2 bl2 wr2 e = outK x u1 u2 wl0 bl0 wr0 wl1 bl1 wr1 wl2 bl2 wr2 e := by
  unfold outR outK h3R h2R h1R h3K h2K h1K
  simp only [refLayerA_eq, refLayerB_eq]

end Cert.ReferenceIdeal.Hand

end
-- ==== Proof.lean ====
/-
  Three GraphSAGE layers computed by three tiled pallas_calls (with the neighbour means, the dropout masks and the
  weight transposes on the host between them) agree with the plain jnp reference over the extended reals.

  Both programs compute, layer by layer, the neighbour mean of the features (the same chain of host operations in
  both, carried as one function and never opened), then the dense map: the kernel as
  `(mean · wlᵀ + x · wrᵀ) + b` tile by tile — the roundings to bf16 on the way into the matrix unit are the identity
  on the extended reals —, the reference as `(mean · wlᵀ + b) + x · wrᵀ` on whole arrays; the two sums differ by the
  order of three summands, equal in any commutative monoid, so no finiteness is used.  The hidden layers then take the
  maximum with zero and multiply by the mask, the same on both sides.
  The kernel's run is read from its generated frame (the result array at the last boundary's contents, walked back to
  the arguments: KernelNamed, KernelValue over RegionA / RegionB / HostK), the reference's from its generated run
  (RefRun), and the two results are one function of the arguments (RefLayer).
-/
import proofs.«157667_j33320356282736_1_alg».proof.Defs
import proofs.«157667_j33320356282736_1_alg».proof.Proof.Gen.Kernel
import proofs.«157667_j33320356282736_1_alg».proof.Proof.Gen.Kernel.Skeleton
import proofs.«157667_j33320356282736_1_alg».proof.Proof.Gen.Kernel.Launch
import proofs.«157667_j33320356282736_1_alg».proof.Proof.Gen.Kernel.Points
import proofs.«157667_j33320356282736_1_alg».proof.Proof.Gen.Kernel.Frame
import proofs.«157667_j33320356282736_1_alg».proof.Proof.Gen.KernelIdeal
import proofs.«157667_j33320356282736_1_alg».proof.Proof.Gen.KernelIdeal.Skeleton
import proofs.«157667_j33320356282736_1_alg».proof.Proof.Gen.KernelIdeal.Launch
import proofs.«157667_j33320356282736_1_alg».proof.Proof.Gen.KernelIdeal.Points
import proofs.«157667_j33320356282736_1_alg».proof.Proof.Gen.KernelIdeal.Frame
import proofs.«157667_j33320356282736_1_alg».proof.Proof.Gen.ReferenceIdeal
import proofs.«157667_j33320356282736_1_alg».proof.Proof.Gen.Pre_finite_inputs
import proofs.«157667_j33320356282736_1_alg».proof.Proof.Gen.ReferenceIdeal.Run
import proofs.«157667_j33320356282736_1_alg».proof.Proof.KernelValue
import proofs.«157667_j33320356282736_1_alg».proof.Proof.RefRun
import proofs.«157667_j33320356282736_1_alg».proof.Proof.RefLayer
import Idealize.ShloMosaic.Adequacy
import Idealize.ShloMosaic.Init

noncomputable section

namespace Cert.Proof

open Idealize.ShloMosaic Idealize.SL.Sem

/-- The printed kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Hand.runR m ρ)

/-- The two idealized programs, run from memories that agree on the arguments, end with the same result array: the
    three-layer network of the arguments, the kernel's by tiles and the reference's on whole arrays. -/
theorem algebraic : Cert.algebraic_KernelIdeal_ReferenceIdeal := by
  intro m ρ m' ρ' _ hagree
  refine ⟨fun c => Cert.KernelIdeal.Hand.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), Cert.KernelIdeal.Hand.kernel_run m ρ, ?_⟩
  refine (θ_run Cert.ReferenceIdeal.defs _ _).mono (fun _ h c => ⟨(h c).1.trans ?_, (h c).2⟩) (Cert.ReferenceIdeal.Hand.runR m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact Cert.ReferenceIdeal.Hand.outR_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
